-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x64 : Shape := ⟨2, ![50000, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S1 .f32) (main_arg14 : FVec F S64x1 .f32) (main_arg15 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S64x1 .f32 := Host.absf main_arg14
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S64 .f32) (main_arg10 : FVec F S64x1 .f32) (main_arg11 : FVec F S1 .f32) (main_arg12 : FVec F S64x1 .f32) (main_arg13 : FVec F S1 .f32) (main_arg14 : FVec F S64x1 .f32) (main_arg15 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg13 main_arg14 main_arg15 main_v48 main_v49 main_v50

def fn_part1 {F : FTy → Type} [FloatOps F] (main_arg6 : FVec F S50000x64 .f32) (main_arg7 : FVec F S50000x64 .f32) (main_arg8 : FVec F S64x64 .f32) (main_arg9 : FVec F S64 .f32) (main_arg10 : FVec F S64x1 .f32) (main_arg11 : FVec F S1 .f32) (main_arg12 : FVec F S64x1 .f32) (main_arg13 : FVec F S1 .f32) (main_arg14 : FVec F S64x1 .f32) (main_arg15 : FVec F S1 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S50000x64 .f32 := Host.absf main_arg6
  let main_cst_6 : FVec F S_ .f32 := constant S_ .f32 0x7F800000#32
  let main_v20 : FVec F S50000x64 .f32 := broadcastInDim S50000x64 ![] bcast_S_S50000x64 main_cst_6
  let main_v21 : IVec S50000x64 1 := cmpf .olt main_v19 main_v20
  let main_c_7 : IVec S_ 1 := constantI S_ 1 1#1
  let main_v22 : IVec S_ 1 := (fun x v => Host.reduce IntOp.andi x v reducesTo_S50000x64_S_d0_1 h_S_) main_v21 main_c_7
  let main_v23 : IVec S_ 1 := andi main_v18 main_v22
  let main_v24 : FVec F S50000x64 .f32 := Host.absf main_arg7
  let main_cst_8 : FVec F S_ .f32 := constant S_ .f32 0x7F800000#32
  let main_v25 : FVec F S50000x64 .f32 := broadcastInDim S50000x64 ![] bcast_S_S50000x64 main_cst_8
  let main_v26 : IVec S50000x64 1 := cmpf .olt main_v24 main_v25
  let main_c_9 : IVec S_ 1 := constantI S_ 1 1#1
  let main_v27 : IVec S_ 1 := (fun x v => Host.reduce IntOp.andi x v reducesTo_S50000x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : IVec S800000 32) (main_arg1 : IVec S800000 32) (main_arg2 : FVec F S50000x64 .f32) (main_arg3 : FVec F S50000x64 .f32) (main_arg4 : FVec F S50000x64 .f32) (main_arg5 : FVec F S50000x64 .f32) (main_arg6 : FVec F S50000x64 .f32) (main_arg7 : FVec F S50000x64 .f32) (main_arg8 : FVec F S64x64 .f32) (main_arg9 : FVec F S64 .f32) (main_arg10 : FVec F S64x1 .f32) (main_arg11 : FVec F S1 .f32) (main_arg12 : FVec F S64x1 .f32) (main_arg13 : FVec F S1 .f32) (main_arg14 : FVec F S64x1 .f32) (main_arg15 : FVec F S1 .f32) : IVec S_ 1 :=
  let main_v0 : FVec F S50000x64 .f32 := Host.absf main_arg2
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg3
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x64 .f32 := Host.absf main_arg4
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S50000x64 .f32 := Host.absf main_arg5
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg6 main_arg7 main_arg8 main_arg9 main_arg10 main_arg11 main_arg12 main_arg13 main_arg14 main_arg15 main_v13 main_v16
-- ==== Kernel.lean ====
abbrev S800000 : Shape := ⟨1, ![800000]⟩
abbrev S50000x64 : Shape := ⟨2, ![50000, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S1x1 : Shape := ⟨2, ![1, 1]⟩
abbrev S5000x64 : Shape := ⟨2, ![5000, 64]⟩
abbrev S5000x1 : Shape := ⟨2, ![5000, 1]⟩
abbrev S5000 : Shape := ⟨1, ![5000]⟩

abbrev nBuf : Space → Nat
  | .hbm => 80
  | .vmem => 22
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x64, .f32⟩
  | .hbm, ⟨3, _⟩ => ⟨S50000x64, .f32⟩
  | .hbm, ⟨4, _⟩ => ⟨S50000x64, .f32⟩
  | .hbm, ⟨5, _⟩ => ⟨S50000x64, .f32⟩
  | .hbm, ⟨6, _⟩ => ⟨S50000x64, .f32⟩
  | .hbm, ⟨7, _⟩ => ⟨S50000x64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S64x1, .f32⟩
  | .hbm, ⟨13, _⟩ => ⟨S1, .f32⟩
  | .hbm, ⟨14, _⟩ => ⟨S64x1, .f32⟩
  | .hbm, ⟨15, _⟩ => ⟨S1, .f32⟩
  | .hbm, ⟨16, _⟩ => ⟨S50000x64, .f32⟩
  | .hbm, ⟨17, _⟩ => ⟨S50000x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S1x1, .f32⟩
  | .hbm, ⟨77, _⟩ => ⟨S1x1, .f32⟩
  | .hbm, ⟨78, _⟩ => ⟨S1x1, .f32⟩
  | .hbm, ⟨79, _⟩ => ⟨S800000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S1x64, .f32⟩
  | .local _ .vmem, ⟨15, _⟩ => ⟨S1x1, .f32⟩
  | .local _ .vmem, ⟨16, _⟩ => ⟨S1x64, .f32⟩
  | .local _ .vmem, ⟨17, _⟩ => ⟨S1x1, .f32⟩
  | .local _ .vmem, ⟨18, _⟩ => ⟨S1x64, .f32⟩
  | .local _ .vmem, ⟨19, _⟩ => ⟨S1x1, .f32⟩
  | .local _ .vmem, ⟨20, _⟩ => ⟨S5000x1, .f32⟩
  | .local _ .vmem, ⟨21, _⟩ => ⟨S5000x1, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_v9 : Ref sig .tc := ⟨.hbm, 28, rfl⟩
abbrev main_v10 : Ref sig .tc := ⟨.hbm, 29, rfl⟩
abbrev main_c_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_9 : Ref sig .tc := ⟨.hbm, 63, rfl⟩
abbrev main_v37 : Ref sig .tc := ⟨.hbm, 64, rfl⟩
abbrev main_v38 : Ref sig .tc := ⟨.hbm, 65, rfl⟩
abbrev main_c_10 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S5000x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  shapeCasts_S64_S1x64 : S64.ShapeCasts S1x64
  transposes_S64x1_S1x64_1_0 : S64x1.Transposes [1, 0] S1x64
  shapeCasts_S1_S1x1 : S1.ShapeCasts S1x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S50000x64_S800000x1_S800000x64_1_0_n_n_0_1_164_wf : GatherDims.WF S50000x64 S800000x1 S800000x64 [1] [0] [] [0] [] 1 ![1, 64]
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S800000x64.size a
  hwx0_0 : ∀ i : grid0.Coords, EltTy.bits .f32 = 32 ∨ (Rect.block (s := S800000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S800000x64.size a
  hwx0_1 : ∀ i : grid0.Coords, EltTy.bits .f32 = 32 ∨ (Rect.block (s := S800000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S800000x64.size a
  hwx0_2 : ∀ i : grid0.Coords, EltTy.bits .f32 = 32 ∨ (Rect.block (s := S800000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S800000x64.size a
  hwx0_3 : ∀ i : grid0.Coords, EltTy.bits .f32 = 32 ∨ (Rect.block (s := S800000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S800000x64.size a
  hwx0_4 : ∀ i : grid0.Coords, EltTy.bits .f32 = 32 ∨ (Rect.block (s := S800000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S800000x64.size a
  hwx0_5 : ∀ i : grid0.Coords, EltTy.bits .f32 = 32 ∨ (Rect.block (s := S800000x64) S5000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x1.size a ≤ S800000x1.size a
  hwx0_14 : ∀ i : grid0.Coords, EltTy.bits .f32 = 32 ∨ (Rect.block (s := S800000x1) S5000x1.size (cc0_transform_14 i) (hinb0_14 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v8) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36) S5000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v43) S5000x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v45) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v48) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v46) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v49) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v47) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v50) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v51) S5000x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S800000 : Shape := ⟨1, ![800000]⟩
abbrev S50000x64 : Shape := ⟨2, ![50000, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x64, .f32⟩
  | .hbm, ⟨3, _⟩ => ⟨S50000x64, .f32⟩
  | .hbm, ⟨4, _⟩ => ⟨S50000x64, .f32⟩
  | .hbm, ⟨5, _⟩ => ⟨S50000x64, .f32⟩
  | .hbm, ⟨6, _⟩ => ⟨S50000x64, .f32⟩
  | .hbm, ⟨7, _⟩ => ⟨S50000x64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S64x1, .f32⟩
  | .hbm, ⟨13, _⟩ => ⟨S1, .f32⟩
  | .hbm, ⟨14, _⟩ => ⟨S64x1, .f32⟩
  | .hbm, ⟨15, _⟩ => ⟨S1, .f32⟩
  | .hbm, ⟨16, _⟩ => ⟨S50000x64, .f32⟩
  | .hbm, ⟨17, _⟩ => ⟨S50000x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S800000x64, .f32⟩
  | .hbm, ⟨37, _⟩ => ⟨S_, .f32⟩
  | .hbm, ⟨38, _⟩ => ⟨S800000x64, .f32⟩
  | .hbm, ⟨39, _⟩ => ⟨S800000x64, .i1⟩
  | .hbm, ⟨40, _⟩ => ⟨S_, .f32⟩
  | .hbm, ⟨41, _⟩ => ⟨S800000x64, .f32⟩
  | .hbm, ⟨42, _⟩ => ⟨S800000x64, .f32⟩
  | .hbm, ⟨43, _⟩ => ⟨S800000x64, .f32⟩
  | .hbm, ⟨44, _⟩ => ⟨S800000x64, .f32⟩
  | .hbm, ⟨45, _⟩ => ⟨S1x64, .f32⟩
  | .hbm, ⟨46, _⟩ => ⟨S800000x64, .f32⟩
  | .hbm, ⟨47, _⟩ => ⟨S800000x64, .f32⟩
  | .hbm, ⟨48, _⟩ => ⟨S_, .f32⟩
  | .hbm, ⟨49, _⟩ => ⟨S800000x64, .f32⟩
  | .hbm, ⟨50, _⟩ => ⟨S800000x64, .i1⟩
  | .hbm, ⟨51, _⟩ => ⟨S_, .f32⟩
  | .hbm, ⟨52, _⟩ => ⟨S800000x64, .f32⟩
  | .hbm, ⟨53, _⟩ => ⟨S800000x64, .f32⟩
  | .hbm, ⟨54, _⟩ => ⟨S800000x64, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x64, .f32⟩
  | .hbm, ⟨73, _⟩ => ⟨S800000x64, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x64, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x64, .f32⟩
  | .hbm, ⟨92, _⟩ => ⟨S800000x64, .f32⟩
  | .hbm, ⟨93, _⟩ => ⟨S800000x1, .f32⟩
  | .hbm, ⟨94, _⟩ => ⟨S1x1, .f32⟩
  | .hbm, ⟨95, _⟩ => ⟨S800000x1, .f32⟩
  | .hbm, ⟨96, _⟩ => ⟨S800000x1, .f32⟩
  | .hbm, ⟨97, _⟩ => ⟨S800000x1, .f32⟩
  | .hbm, ⟨98, _⟩ => ⟨S1x1, .f32⟩
  | .hbm, ⟨99, _⟩ => ⟨S800000x1, .f32⟩
  | .hbm, ⟨100, _⟩ => ⟨S800000x1, .f32⟩
  | .hbm, ⟨101, _⟩ => ⟨S800000x1, .f32⟩
  | .hbm, ⟨102, _⟩ => ⟨S800000x1, .f32⟩
  | .hbm, ⟨103, _⟩ => ⟨S1x1, .f32⟩
  | .hbm, ⟨104, _⟩ => ⟨S800000x1, .f32⟩
  | .hbm, ⟨105, _⟩ => ⟨S800000x1, .f32⟩
  | .hbm, ⟨106, _⟩ => ⟨S800000x1, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_v9 : Ref sig .tc := ⟨.hbm, 28, rfl⟩
abbrev main_v10 : Ref sig .tc := ⟨.hbm, 29, rfl⟩
abbrev main_c_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_8 : Ref sig .tc := ⟨.hbm, 64, rfl⟩
abbrev main_v38 : Ref sig .tc := ⟨.hbm, 65, rfl⟩
abbrev main_v39 : Ref sig .tc := ⟨.hbm, 66, rfl⟩
abbrev main_c_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_10 : Ref sig .tc := ⟨.hbm, 74, rfl⟩
abbrev main_v46 : Ref sig .tc := ⟨.hbm, 75, rfl⟩
abbrev main_v47 : Ref sig .tc := ⟨.hbm, 76, rfl⟩
abbrev main_c_11 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_12 : Ref sig .tc := ⟨.hbm, 83, rfl⟩
abbrev main_v53 : Ref sig .tc := ⟨.hbm, 84, rfl⟩
abbrev main_v54 : Ref sig .tc := ⟨.hbm, 85, rfl⟩
abbrev main_c_13 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  dot_S800000x64_S64x1_S800000x1_1_0_0_1_n_n_wf : DotDims.WF S800000x64 S64x1 S800000x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf

class Facts : Prop extends Facts₀ where

variable [Facts]
-- ==== Proof.EdgeScore.lean ====
/-
  The score of one edge, on the extended reals.

  An edge reads six rows of 64 numbers: the summed source and destination features `a`, `b`, the pair `x1`, `x2`
  and the pair `y1`, `y2`. The trust branch is a leaky rectifier, a 64 × 64 linear map with bias, and the rectifier again;
  three linear heads into one number each, with a bias each, are then added:

      score = ((∑ j, hidden j · wL j) + bL) + ((∑ j, (x1 j · x2 j) · w1 j) + b1) + ((∑ j, (y1 j · y2 j) · w2 j) + b2),
      hidden j = lrelu ((∑ k, lrelu (a k + b k) · W k j) + bias j).

  Both programs compute exactly these sums of exactly these products, in this grouping; nothing below is rearranged, so no
  law of the extended reals that needs finiteness is used anywhere.
-/
import Idealize.ShloMosaic.PureOps.Ideal
import Idealize.ShloMosaic.Lib.ValueIdx

noncomputable section

namespace Cert.EdgeScore

open Idealize.ShloMosaic Idealize.ShloMosaic.ValueIdx

/-- The leaky rectifier with slope `f32(0.01)` on the negative side: `x` where `x ≥ 0`, the slope times `x` elsewhere. -/
def lrelu (x : EReal) : EReal :=
  Scalar.select (FloatOps.cmpf (F := Ideal) (φ := .f32) .oge x (FloatOps.ofBits (F := Ideal) .f32 0x00000000#32)) x
    (FloatOps.mulf (F := Ideal) (φ := .f32) (FloatOps.ofBits (F := Ideal) .f32 0x3C23D70A#32) x)

/-- Entry `j` of the trust branch of an edge whose summed feature rows are `a` and `b`. -/
def hidden (a b : Fin 64 → EReal) (W : Fin 64 → Fin 64 → EReal) (bias : Fin 64 → EReal) (j : Fin 64) : EReal :=
  lrelu ((∑ k : Fin 64, lrelu (a k + b k) * W k j) + bias j)

/-- The score of an edge from its six rows and the parameters. -/
def score (a b x1 x2 y1 y2 : Fin 64 → EReal) (W : Fin 64 → Fin 64 → EReal) (bias wL w1 w2 : Fin 64 → EReal)
    (bL b1 b2 : EReal) : EReal :=
  (((∑ j : Fin 64, hidden a b W bias j * wL j) + bL) + ((∑ j : Fin 64, (x1 j * x2 j) * w1 j) + b1))
    + ((∑ j : Fin 64, (y1 j * y2 j) * w2 j) + b2)

/-- The scores of all edges: edge `e` reads row `e` of each of the six gathered arrays; the parameters are laid out as the
    programs' arguments are — the bias a vector of 64, each head a 64 × 1 column, each head's bias a vector of one. -/
def scores (S P X1 X2 Y1 Y2 : (⟨2, ![800000, 64]⟩ : Shape).Idx → EReal) (W : (⟨2, ![64, 64]⟩ : Shape).Idx → EReal)
    (bias : (⟨1, ![64]⟩ : Shape).Idx → EReal) (wL : (⟨2, ![64, 1]⟩ : Shape).Idx → EReal) (bL : (⟨1, ![1]⟩ : Shape).Idx → EReal)
    (w1 : (⟨2, ![64, 1]⟩ : Shape).Idx → EReal) (b1 : (⟨1, ![1]⟩ : Shape).Idx → EReal)
    (w2 : (⟨2, ![64, 1]⟩ : Shape).Idx → EReal) (b2 : (⟨1, ![1]⟩ : Shape).Idx → EReal) :
    (⟨2, ![800000, 1]⟩ : Shape).Idx → EReal := fun i =>
  score (fun k => S (ix2 (i 0) k)) (fun k => P (ix2 (i 0) k)) (fun k => X1 (ix2 (i 0) k)) (fun k => X2 (ix2 (i 0) k))
    (fun k => Y1 (ix2 (i 0) k)) (fun k => Y2 (ix2 (i 0) k)) (fun k j => W (ix2 k j)) (fun j => bias (ix1 j))
    (fun j => wL (ix2 j (0 : Fin 1))) (fun j => w1 (ix2 j (0 : Fin 1))) (fun j => w2 (ix2 j (0 : Fin 1)))
    (bL (ix1 (0 : Fin 1))) (b1 (ix1 (0 : Fin 1))) (b2 (ix1 (0 : Fin 1)))

end Cert.EdgeScore

end
-- ==== Proof.RefScore.lean ====
/-
  The reference computes the edge scores.

  Read one stage at a time, entry `(e, 0)` of the reference's result is: the rectifier of the sum of rows `e` of the two
  gathered sums of node features; the contraction of that row with the 64 × 64 weights, the bias added and the rectifier
  applied again; the contraction of the result with the first head's column, plus that head's bias; the same for the two
  elementwise products of gathered rows with their heads; and the three numbers added, left to right. That is `score` of
  rows `e` of the six gathered arrays. The gathers themselves are never opened: whatever rows they pick, both programs pick
  the same ones.
-/
import proofs.«125923_j13503377179004_1_alg».proof.Proof.Gen.ReferenceIdeal.Read
import proofs.«125923_j13503377179004_1_alg».proof.Proof.EdgeScore

noncomputable section

namespace Cert.ReferenceIdeal.RefScore

open Cert.ReferenceIdeal Cert.ReferenceIdeal.Read Cert.EdgeScore Idealize.ShloMosaic Idealize.ShloMosaic.ValueIdx

variable (x0 x1 : (⟨S800000, .i32⟩ : BufTy).Contents (Elt Ideal))
  (x2 x3 x4 x5 x6 x7 : (⟨S50000x64, .f32⟩ : BufTy).Contents (Elt Ideal))
  (x8 : (⟨S64x64, .f32⟩ : BufTy).Contents (Elt Ideal)) (x9 : (⟨S64, .f32⟩ : BufTy).Contents (Elt Ideal))
  (x10 x12 x14 : (⟨S64x1, .f32⟩ : BufTy).Contents (Elt Ideal)) (x11 x13 x15 : (⟨S1, .f32⟩ : BufTy).Contents (Elt Ideal))

/-- The first rectifier: of the sum of the two gathered feature sums, entry by entry. -/
theorem rectified_at (i : S800000x64.Idx) :
    val_main_v21 (F := Ideal) x0 x1 x2 x3 x4 x5 i
      = lrelu (val_main_v8 (F := Ideal) x0 x2 x3 i + val_main_v15 (F := Ideal) x1 x4 x5 i) := by
  rw [val_main_v21_apply, val_main_v18_apply, val_main_v20_apply, val_main_v16_apply, val_main_v17_apply,
    val_main_cst_apply, val_main_v19_apply, val_main_cst_3_apply]
  rfl

/-- The trust branch at `(e, j)`: `hidden` of rows `e` of the two gathered feature sums. -/
theorem hidden_at (e : Fin 800000) (j : Fin 64) :
    val_main_v30 (F := Ideal) x0 x1 x2 x3 x4 x5 x8 x9 (ix2 e j)
      = hidden (fun k => val_main_v8 (F := Ideal) x0 x2 x3 (ix2 e k)) (fun k => val_main_v15 (F := Ideal) x1 x4 x5 (ix2 e k))
          (fun k j => x8 (ix2 k j)) (fun j => x9 (ix1 j)) j := by
  have el : ∀ k : Fin 64, lidx_main_v22 (ix2 e j) k = ix2 e k := fun k => funext fun a => Fin.ext (by
    match a with
    | ⟨0, _⟩ => rfl
    | ⟨1, _⟩ => rfl)
  have er : ∀ k : Fin 64, ridx_main_v22 (ix2 e j) k = ix2 k j := fun k => funext fun a => Fin.ext (by
    match a with
    | ⟨0, _⟩ => rfl
    | ⟨1, _⟩ => rfl)
  have eb : idx_main_v23 (idx_main_v24 (ix2 e j)) = ix1 j := funext fun a => Fin.ext (by
    match a with
    | ⟨0, _⟩ => rfl)
  rw [val_main_v30_apply, val_main_v27_apply, val_main_v29_apply, val_main_v25_apply, val_main_v22_apply,
    val_main_v24_apply, val_main_v23_apply, val_main_v26_apply, val_main_cst_4_apply, val_main_v28_apply,
    val_main_cst_5_apply, eb]
  simp only [rectified_at, el, er]
  rfl

/-- The first head's contraction at edge `e`. -/
theorem headL_at (e : Fin 800000) (u : Fin 1) :
    val_main_v61 (F := Ideal) x0 x1 x2 x3 x4 x5 x8 x9 x10 (ix2 e u)
      = ∑ j : Fin 64, hidden (fun k => val_main_v8 (F := Ideal) x0 x2 x3 (ix2 e k))
          (fun k => val_main_v15 (F := Ideal) x1 x4 x5 (ix2 e k)) (fun k j => x8 (ix2 k j)) (fun j => x9 (ix1 j)) j
          * x10 (ix2 j (0 : Fin 1)) := by
  have hu : u = 0 := Subsingleton.elim _ _
  subst hu
  have el : ∀ k : Fin 64, lidx_main_v61 (ix2 e (0 : Fin 1)) k = ix2 e k := fun k => funext fun a => Fin.ext (by
    match a with
    | ⟨0, _⟩ => rfl
    | ⟨1, _⟩ => rfl)
  have er : ∀ k : Fin 64, ridx_main_v61 (ix2 e (0 : Fin 1)) k = ix2 k (0 : Fin 1) := fun k => funext fun a => Fin.ext (by
    match a with
    | ⟨0, _⟩ => rfl
    | ⟨1, _⟩ => rfl)
  rw [val_main_v61_apply]
  simp only [el, er, hidden_at]

/-- The second head's contraction at edge `e`: over the products of the two gathered rows of the first pair. -/
theorem head1_at (e : Fin 800000) (u : Fin 1) :
    val_main_v65 (F := Ideal) x0 x1 x6 x12 (ix2 e u)
      = ∑ j : Fin 64, (val_main_v37 (F := Ideal) x0 x6 (ix2 e j) * val_main_v44 (F := Ideal) x1 x6 (ix2 e j))
          * x12 (ix2 j (0 : Fin 1)) := by
  have hu : u = 0 := Subsingleton.elim _ _
  subst hu
  have el : ∀ k : Fin 64, lidx_main_v65 (ix2 e (0 : Fin 1)) k = ix2 e k := fun k => funext fun a => Fin.ext (by
    match a with
    | ⟨0, _⟩ => rfl
    | ⟨1, _⟩ => rfl)
  have er : ∀ k : Fin 64, ridx_main_v65 (ix2 e (0 : Fin 1)) k = ix2 k (0 : Fin 1) := fun k => funext fun a => Fin.ext (by
    match a with
    | ⟨0, _⟩ => rfl
    | ⟨1, _⟩ => rfl)
  rw [val_main_v65_apply]
  simp only [el, er, val_main_v45_apply]
  rfl

/-- The third head's contraction at edge `e`: over the products of the two gathered rows of the second pair. -/
theorem head2_at (e : Fin 800000) (u : Fin 1) :
    val_main_v70 (F := Ideal) x0 x1 x7 x14 (ix2 e u)
      = ∑ j : Fin 64, (val_main_v52 (F := Ideal) x0 x7 (ix2 e j) * val_main_v59 (F := Ideal) x1 x7 (ix2 e j))
          * x14 (ix2 j (0 : Fin 1)) := by
  have hu : u = 0 := Subsingleton.elim _ _
  subst hu
  have el : ∀ k : Fin 64, lidx_main_v70 (ix2 e (0 : Fin 1)) k = ix2 e k := fun k => funext fun a => Fin.ext (by
    match a with
    | ⟨0, _⟩ => rfl
    | ⟨1, _⟩ => rfl)
  have er : ∀ k : Fin 64, ridx_main_v70 (ix2 e (0 : Fin 1)) k = ix2 k (0 : Fin 1) := fun k => funext fun a => Fin.ext (by
    match a with
    | ⟨0, _⟩ => rfl
    | ⟨1, _⟩ => rfl)
  rw [val_main_v70_apply]
  simp only [el, er, val_main_v60_apply]
  rfl

/-- A head's bias, a vector of one entry broadcast down the column of scores: every edge reads that entry. -/
theorem biasL_at (i : S800000x1.Idx) : val_main_v63 (F := Ideal) x11 i = x11 (ix1 (0 : Fin 1)) := by
  rw [val_main_v63_apply, val_main_v62_apply]
  exact congrArg x11 (funext fun a => Fin.ext (by
    match a with
    | ⟨0, _⟩ => rfl))

theorem bias1_at (i : S800000x1.Idx) : val_main_v67 (F := Ideal) x13 i = x13 (ix1 (0 : Fin 1)) := by
  rw [val_main_v67_apply, val_main_v66_apply]
  exact congrArg x13 (funext fun a => Fin.ext (by
    match a with
    | ⟨0, _⟩ => rfl))

theorem bias2_at (i : S800000x1.Idx) : val_main_v72 (F := Ideal) x15 i = x15 (ix1 (0 : Fin 1)) := by
  rw [val_main_v72_apply, val_main_v71_apply]
  exact congrArg x15 (funext fun a => Fin.ext (by
    match a with
    | ⟨0, _⟩ => rfl))

/-- THE REFERENCE'S RESULT is the scores of the edges, over the six arrays its gathers produce. -/
theorem result_eq :
    val_main_v74 (F := Ideal) x0 x1 x2 x3 x4 x5 x6 x7 x8 x9 x10 x11 x12 x13 x14 x15
      = scores (val_main_v8 (F := Ideal) x0 x2 x3) (val_main_v15 (F := Ideal) x1 x4 x5) (val_main_v37 (F := Ideal) x0 x6)
          (val_main_v44 (F := Ideal) x1 x6) (val_main_v52 (F := Ideal) x0 x7) (val_main_v59 (F := Ideal) x1 x7)
          x8 x9 x10 x11 x12 x13 x14 x15 := by
  funext i
  obtain ⟨e, u, rfl⟩ : ∃ (e : Fin 800000) (u : Fin 1), i = ix2 e u := ⟨i 0, i 1, eq_ix2 i⟩
  rw [val_main_v74_apply, val_main_v69_apply, val_main_v64_apply, val_main_v68_apply, val_main_v73_apply,
    headL_at, head1_at, head2_at, biasL_at, bias1_at, bias2_at]
  rfl

end Cert.ReferenceIdeal.RefScore

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.BlockScore.lean ====
/-
  One block of the kernel's result: the scores of 5000 consecutive edges.

  At a grid point the body loads fourteen blocks: rows of the six gathered arrays (5000 × 64 each), the 64 × 64 weights, the
  bias as a 1 × 64 row, each head's weights as a 1 × 64 row and each head's bias as a 1 × 1 block. What it stores at
  `(p, 0)` is, read off the body's operations one at a time: the lane sum over `j` of the trust branch's entry `(p, j)` times
  the first head's row entry `j`, plus that head's bias; the same over the products of rows `p` of the two pairs; and the
  three added, left to right. The trust branch's entry `(p, j)` is the rectifier of the matrix product's entry — the sum
  over `k` of the rectified sum of rows `p` at `k` times the weights at `(k, j)`, into a zero accumulator — plus the bias
  row's entry `j` (a change of float format between the two is the identity on the extended reals). That is `score` of rows
  `p` of the six row blocks.
-/
import proofs.«125923_j13503377179004_1_alg».proof.Proof.PatchedKernelIdealValue
import proofs.«125923_j13503377179004_1_alg».proof.Proof.EdgeScore
import proofs.«125923_j13503377179004_1_alg».proof.Proof.LibMatmulNN
import Idealize.ShloMosaic.Lib.ValueLayout
import Idealize.ShloMosaic.PureOps.Ideal.Laws

noncomputable section

namespace Cert.KernelIdeal.BlockScore

open Cert.KernelIdeal Cert.KernelIdeal.Gen Cert.KernelIdeal.GenP Cert.KernelIdeal.ValueP Cert.EdgeScore
open Idealize.ShloMosaic Idealize.ShloMosaic.ValueIdx

/-- A lane sum of a 5000 × 64 block from zero, at row `p`: the sum of that row's 64 entries. -/
theorem lane_sum_at (v : FVec Ideal S5000x64 .f32) (p : Fin 5000) :
    multiReduction (F := Ideal) .add [1] S5000 v 0x00000000#32 reduces_S5000x64_S5000 (.inl rfl) rfl (ix1 p)
      = ∑ k : Fin 64, v (ix2 p k) := by
  refine (Ideal.multiReduction_add_single v 0x00000000#32 reduces_S5000x64_S5000 (.inl rfl) rfl (ix1 p)).trans ?_
  refine Finset.sum_congr rfl fun k _ => congrArg v ?_
  funext a; apply Fin.ext
  match a with
  | ⟨0, _⟩ => rfl
  | ⟨1, _⟩ => rfl

/-- A 1 × 64 row stretched over the 5000 rows of a block: every row reads the one row. -/
theorem row_at {α : Type} (v : S1x64.Idx → α) (p : Fin 5000) (j : Fin 64) :
    broadcastTo S5000x64 v broadcasts_S1x64_S5000x64 (ix2 p j) = v (ix2 (0 : Fin 1) j) :=
  broadcastTo_1b_ab_apply v broadcasts_S1x64_S5000x64 p j

/-- The trust branch of a block as the body spells it: rectifier, matrix product into zero, bias row, rectifier. -/
theorem trust_spelt (P0 P1 : Vec Ideal S5000x64 .f32) (P2 : Vec Ideal S64x64 .f32) (P3 : Vec Ideal S1x64 .f32)
    (i : S5000x64.Idx) :
    k0_pay2 (F := Ideal) P0 P1 P2 P3 i
      = lrelu (matmul dot_S5000x64_S64x64_S5000x64_1_0_0_1_n_n none
            (truncf .bf16 (fun i' : S5000x64.Idx => lrelu (shapeCast S5000x64 P0 shapeCasts_S5000x64_S5000x64 i'
              + shapeCast S5000x64 P1 shapeCasts_S5000x64_S5000x64 i')) bitsLt_bf16_f32 : FVec Ideal S5000x64 .bf16)
            (truncf .bf16 P2 bitsLt_bf16_f32 : FVec Ideal S64x64 .bf16) (constant S5000x64 .f32 0x00000000#32) i
          + broadcastTo S5000x64 (shapeCast S1x64 P3 shapeCasts_S1x64_S1x64) broadcasts_S1x64_S5000x64 i) := rfl

/-- The trust branch of a block at `(p, j)`: `hidden` of rows `p` of the two feature blocks. -/
theorem trust_at (P0 P1 : Vec Ideal S5000x64 .f32) (P2 : Vec Ideal S64x64 .f32) (P3 : Vec Ideal S1x64 .f32)
    (p : Fin 5000) (j : Fin 64) :
    k0_pay2 (F := Ideal) P0 P1 P2 P3 (ix2 p j)
      = hidden (fun k => P0 (ix2 p k)) (fun k => P1 (ix2 p k)) (fun k j => P2 (ix2 k j))
          (fun j => P3 (ix2 (0 : Fin 1) j)) j := by
  rw [trust_spelt, shapeCast_self, shapeCast_self, shapeCast_self, row_at]
  unfold EdgeScore.hidden
  refine congrArg (fun s => lrelu (s + P3 (ix2 (0 : Fin 1) j))) ?_
  exact Idealize.ShloMosaic.MatmulNN.matmul_zero_apply (M := 5000) (K := 64) (N := 64) none _ _ p j

/-- WHAT THE BODY STORES at `(p, 0)`, over arbitrary loaded blocks: the score of rows `p`. -/
theorem stored_at (P0 P1 : Vec Ideal S5000x64 .f32) (P2 : Vec Ideal S64x64 .f32) (P3 P4 : Vec Ideal S1x64 .f32)
    (P5 : Vec Ideal S1x1 .f32) (P6 P7 : Vec Ideal S5000x64 .f32) (P8 : Vec Ideal S1x64 .f32) (P9 : Vec Ideal S1x1 .f32)
    (P10 P11 : Vec Ideal S5000x64 .f32) (P12 : Vec Ideal S1x64 .f32) (P13 : Vec Ideal S1x1 .f32) (p : Fin 5000) (u : Fin 1) :
    E14 (F := Ideal) P0 P1 P2 P3 P4 P5 P6 P7 P8 P9 P10 P11 P12 P13 (ix2 p u)
      = score (fun k => P0 (ix2 p k)) (fun k => P1 (ix2 p k)) (fun k => P6 (ix2 p k)) (fun k => P7 (ix2 p k))
          (fun k => P10 (ix2 p k)) (fun k => P11 (ix2 p k)) (fun k j => P2 (ix2 k j)) (fun j => P3 (ix2 (0 : Fin 1) j))
          (fun j => P4 (ix2 (0 : Fin 1) j)) (fun j => P8 (ix2 (0 : Fin 1) j)) (fun j => P12 (ix2 (0 : Fin 1) j))
          (P5 (ix2 (0 : Fin 1) (0 : Fin 1))) (P9 (ix2 (0 : Fin 1) (0 : Fin 1))) (P13 (ix2 (0 : Fin 1) (0 : Fin 1))) := by
  have er : ∀ y : S5000x1.Idx, y = ix2 p u → ix14_0 y = ix1 p := fun y hy => by
    subst hy; funext a; apply Fin.ext
    match a with
    | ⟨0, _⟩ => rfl
  have e0 : ix14_0 (ix2 p u) = ix1 p := er _ rfl
  have e2 : ix14_2 (ix2 p u) = ix1 p := er _ rfl
  have e4 : ix14_4 (ix2 p u) = ix1 p := er _ rfl
  have eb : ∀ q : S1x1.Idx, q = ix2 (0 : Fin 1) (0 : Fin 1) := fun q => by
    funext a; apply Fin.ext
    match a with
    | ⟨0, _⟩ => have h : (q 0).val < 1 := (q 0).isLt; show (q 0).val = 0; omega
    | ⟨1, _⟩ => have h : (q 1).val < 1 := (q 1).isLt; show (q 1).val = 0; omega
  simp only [E14]
  rw [e0, e2, e4, eb (ix14_1 (ix2 p u)), eb (ix14_3 (ix2 p u)), eb (ix14_5 (ix2 p u)),
    lane_sum_at, lane_sum_at, lane_sum_at]
  simp only [mulf_apply, shapeCast_self, row_at, trust_at]
  rfl

end Cert.KernelIdeal.BlockScore

end
-- ==== Proof.KernelScore.lean ====
/-
  The kernel's result array holds every edge's score.

  The grid has 160 points. At point `t` each of the six row operands is staged as rows `5000 t … 5000 t + 4999` of its
  array, the eight small operands as their whole arrays, and the block stored back is rows `5000 t … 5000 t + 4999` of the
  800000 × 1 result. The body's store at `(p, 0)` is the score of rows `p` of the six staged blocks, so point `t` writes the
  scores of edges `5000 t + p`; the 160 blocks tile the result (edge `e` is in block `e / 5000`), so after the run the
  result at `(e, 0)` is the score of rows `e` of the six arrays as the region finds them.
-/
import proofs.«125923_j13503377179004_1_alg».proof.Proof.BlockScore
import Idealize.ShloMosaic.Lib.Pipeline.Value

noncomputable section

namespace Cert.KernelIdeal.KernelScore

open Cert.KernelIdeal Cert.KernelIdeal.Gen Cert.KernelIdeal.GenP Cert.KernelIdeal.ValueP Cert.KernelIdeal.BlockScore Cert.EdgeScore
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 160 grid points: a row operand's and the result's block index is `(t, 0)`,
    a small operand's `(0, 0)`. -/
theorem index_maps : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = t.val ∧ win0_14.index t (1 : Fin 2) = 0) :=
  (by decide +kernel : ∀ t : Fin grid0.N, _)

/-- `score` is a function of its fourteen arguments. -/
theorem score_congr {a a' b b' x1 x1' x2 x2' y1 y1' y2 y2' : Fin 64 → EReal} {W W' : Fin 64 → Fin 64 → EReal}
    {bias bias' wL wL' w1 w1' w2 w2' : Fin 64 → EReal} {bL bL' b1 b1' b2 b2' : EReal}
    (ha : a = a') (hb : b = b') (hx1 : x1 = x1') (hx2 : x2 = x2') (hy1 : y1 = y1') (hy2 : y2 = y2') (hW : W = W')
    (hbias : bias = bias') (hwL : wL = wL') (hw1 : w1 = w1') (hw2 : w2 = w2') (hbL : bL = bL') (hb1 : b1 = b1')
    (hb2 : b2 = b2') :
    score a b x1 x2 y1 y2 W bias wL w1 w2 bL b1 b2 = score a' b' x1' x2' y1' y2' W' bias' wL' w1' w2' bL' b1' b2' := by
  subst ha hb hx1 hx2 hy1 hy2 hW hbias hwL hw1 hw2 hbL hb1 hb2
  rfl

/-- The score of edge `e`, over the fourteen arrays as the region finds them: rows `e` of the six row arrays, the
    weights, the bias row, the three head rows and the three one-entry bias blocks. -/
def edgeScore (c : Dev nD) (e : Fin 800000) : EReal :=
  score (fun k => (V m c main_v8 : S800000x64.Idx → EReal) (ix2 e k))
    (fun k => (V m c main_v15 : S800000x64.Idx → EReal) (ix2 e k))
    (fun k => (V m c main_v22 : S800000x64.Idx → EReal) (ix2 e k))
    (fun k => (V m c main_v29 : S800000x64.Idx → EReal) (ix2 e k))
    (fun k => (V m c main_v36 : S800000x64.Idx → EReal) (ix2 e k))
    (fun k => (V m c main_v43 : S800000x64.Idx → EReal) (ix2 e k))
    (fun k j => (V m c main_arg8 : S64x64.Idx → EReal) (ix2 k j))
    (fun j => (V m c main_v44 : S1x64.Idx → EReal) (ix2 (0 : Fin 1) j))
    (fun j => (V m c main_v45 : S1x64.Idx → EReal) (ix2 (0 : Fin 1) j))
    (fun j => (V m c main_v46 : S1x64.Idx → EReal) (ix2 (0 : Fin 1) j))
    (fun j => (V m c main_v47 : S1x64.Idx → EReal) (ix2 (0 : Fin 1) j))
    ((V m c main_v48 : S1x1.Idx → EReal) (ix2 (0 : Fin 1) (0 : Fin 1)))
    ((V m c main_v49 : S1x1.Idx → EReal) (ix2 (0 : Fin 1) (0 : Fin 1)))
    ((V m c main_v50 : S1x1.Idx → EReal) (ix2 (0 : Fin 1) (0 : Fin 1)))

/-- Every edge's score, as the 800000 × 1 array of the result: entry `(e, 0)` is edge `e`'s. -/
def G (c : Dev nD) : S800000x1.Idx → EReal := fun i => edgeScore m c (i 0 : Fin 800000)

/-! ## The staged blocks are rows of the arrays -/

/-- Row `p` of window 0's block at point `t` is row `5000 t + p` of its array. -/
theorem rows0 (c : Dev nD) (t : Fin cfg0.N) (p : Fin 5000) (k : Fin 64) (e : Fin 800000) (he : e.val = 5000 * t.val + p.val) :
    (iblk m c 0 t : Vec Ideal S5000x64 .f32) (ix2 p k) = (V m c main_v8 : S800000x64.Idx → EReal) (ix2 e k) := by
  have h0 := (index_maps t).1.1
  have h1 := (index_maps t).1.2
  show (V m c main_v8 : S800000x64.Idx → EReal) (((cfg0.win 0).blk t).view.emb (ix2 p k)) = _
  refine congrArg (V m c main_v8 : S800000x64.Idx → EReal) (funext fun a => Fin.ext ?_)
  match a with
  | ⟨0, _⟩ => show win0_0.index t (0 : Fin 2) * 5000 + 1 * p.val = e.val; rw [h0, he]; omega
  | ⟨1, _⟩ => show win0_0.index t (1 : Fin 2) * 64 + 1 * k.val = k.val; rw [h1]; omega

/-- Row `p` of window 1's block at point `t` is row `5000 t + p` of its array. -/
theorem rows1 (c : Dev nD) (t : Fin cfg0.N) (p : Fin 5000) (k : Fin 64) (e : Fin 800000) (he : e.val = 5000 * t.val + p.val) :
    (iblk m c 1 t : Vec Ideal S5000x64 .f32) (ix2 p k) = (V m c main_v15 : S800000x64.Idx → EReal) (ix2 e k) := by
  have h0 := (index_maps t).2.1.1
  have h1 := (index_maps t).2.1.2
  show (V m c main_v15 : S800000x64.Idx → EReal) (((cfg0.win 1).blk t).view.emb (ix2 p k)) = _
  refine congrArg (V m c main_v15 : S800000x64.Idx → EReal) (funext fun a => Fin.ext ?_)
  match a with
  | ⟨0, _⟩ => show win0_1.index t (0 : Fin 2) * 5000 + 1 * p.val = e.val; rw [h0, he]; omega
  | ⟨1, _⟩ => show win0_1.index t (1 : Fin 2) * 64 + 1 * k.val = k.val; rw [h1]; omega

/-- Row `p` of window 2's block at point `t` is row `5000 t + p` of its array. -/
theorem rows2 (c : Dev nD) (t : Fin cfg0.N) (p : Fin 5000) (k : Fin 64) (e : Fin 800000) (he : e.val = 5000 * t.val + p.val) :
    (iblk m c 2 t : Vec Ideal S5000x64 .f32) (ix2 p k) = (V m c main_v22 : S800000x64.Idx → EReal) (ix2 e k) := by
  have h0 := (index_maps t).2.2.1.1
  have h1 := (index_maps t).2.2.1.2
  show (V m c main_v22 : S800000x64.Idx → EReal) (((cfg0.win 2).blk t).view.emb (ix2 p k)) = _
  refine congrArg (V m c main_v22 : S800000x64.Idx → EReal) (funext fun a => Fin.ext ?_)
  match a with
  | ⟨0, _⟩ => show win0_2.index t (0 : Fin 2) * 5000 + 1 * p.val = e.val; rw [h0, he]; omega
  | ⟨1, _⟩ => show win0_2.index t (1 : Fin 2) * 64 + 1 * k.val = k.val; rw [h1]; omega

/-- Row `p` of window 3's block at point `t` is row `5000 t + p` of its array. -/
theorem rows3 (c : Dev nD) (t : Fin cfg0.N) (p : Fin 5000) (k : Fin 64) (e : Fin 800000) (he : e.val = 5000 * t.val + p.val) :
    (iblk m c 3 t : Vec Ideal S5000x64 .f32) (ix2 p k) = (V m c main_v29 : S800000x64.Idx → EReal) (ix2 e k) := by
  have h0 := (index_maps t).2.2.2.1.1
  have h1 := (index_maps t).2.2.2.1.2
  show (V m c main_v29 : S800000x64.Idx → EReal) (((cfg0.win 3).blk t).view.emb (ix2 p k)) = _
  refine congrArg (V m c main_v29 : S800000x64.Idx → EReal) (funext fun a => Fin.ext ?_)
  match a with
  | ⟨0, _⟩ => show win0_3.index t (0 : Fin 2) * 5000 + 1 * p.val = e.val; rw [h0, he]; omega
  | ⟨1, _⟩ => show win0_3.index t (1 : Fin 2) * 64 + 1 * k.val = k.val; rw [h1]; omega

/-- Row `p` of window 4's block at point `t` is row `5000 t + p` of its array. -/
theorem rows4 (c : Dev nD) (t : Fin cfg0.N) (p : Fin 5000) (k : Fin 64) (e : Fin 800000) (he : e.val = 5000 * t.val + p.val) :
    (iblk m c 4 t : Vec Ideal S5000x64 .f32) (ix2 p k) = (V m c main_v36 : S800000x64.Idx → EReal) (ix2 e k) := by
  have h0 := (index_maps t).2.2.2.2.1.1
  have h1 := (index_maps t).2.2.2.2.1.2
  show (V m c main_v36 : S800000x64.Idx → EReal) (((cfg0.win 4).blk t).view.emb (ix2 p k)) = _
  refine congrArg (V m c main_v36 : S800000x64.Idx → EReal) (funext fun a => Fin.ext ?_)
  match a with
  | ⟨0, _⟩ => show win0_4.index t (0 : Fin 2) * 5000 + 1 * p.val = e.val; rw [h0, he]; omega
  | ⟨1, _⟩ => show win0_4.index t (1 : Fin 2) * 64 + 1 * k.val = k.val; rw [h1]; omega

/-- Row `p` of window 5's block at point `t` is row `5000 t + p` of its array. -/
theorem rows5 (c : Dev nD) (t : Fin cfg0.N) (p : Fin 5000) (k : Fin 64) (e : Fin 800000) (he : e.val = 5000 * t.val + p.val) :
    (iblk m c 5 t : Vec Ideal S5000x64 .f32) (ix2 p k) = (V m c main_v43 : S800000x64.Idx → EReal) (ix2 e k) := by
  have h0 := (index_maps t).2.2.2.2.2.1.1
  have h1 := (index_maps t).2.2.2.2.2.1.2
  show (V m c main_v43 : S800000x64.Idx → EReal) (((cfg0.win 5).blk t).view.emb (ix2 p k)) = _
  refine congrArg (V m c main_v43 : S800000x64.Idx → EReal) (funext fun a => Fin.ext ?_)
  match a with
  | ⟨0, _⟩ => show win0_5.index t (0 : Fin 2) * 5000 + 1 * p.val = e.val; rw [h0, he]; omega
  | ⟨1, _⟩ => show win0_5.index t (1 : Fin 2) * 64 + 1 * k.val = k.val; rw [h1]; omega

/-- Window 6 has one block, its whole array, at every point. -/
theorem whole6 (c : Dev nD) (t : Fin cfg0.N) (a : Fin 64) (b : Fin 64) :
    (iblk m c 6 t : Vec Ideal S64x64 .f32) (ix2 a b) = (V m c main_arg8 : S64x64.Idx → EReal) (ix2 a b) := by
  have h0 := (index_maps t).2.2.2.2.2.2.1.1
  have h1 := (index_maps t).2.2.2.2.2.2.1.2
  show (V m c main_arg8 : S64x64.Idx → EReal) (((cfg0.win 6).blk t).view.emb (ix2 a b)) = _
  refine congrArg (V m c main_arg8 : S64x64.Idx → EReal) (funext fun ax => Fin.ext ?_)
  match ax with
  | ⟨0, _⟩ => show win0_6.index t (0 : Fin 2) * 64 + 1 * a.val = a.val; rw [h0]; omega
  | ⟨1, _⟩ => show win0_6.index t (1 : Fin 2) * 64 + 1 * b.val = b.val; rw [h1]; omega

/-- Window 7 has one block, its whole array, at every point. -/
theorem whole7 (c : Dev nD) (t : Fin cfg0.N) (a : Fin 1) (b : Fin 64) :
    (iblk m c 7 t : Vec Ideal S1x64 .f32) (ix2 a b) = (V m c main_v44 : S1x64.Idx → EReal) (ix2 a b) := by
  have h0 := (index_maps t).2.2.2.2.2.2.2.1.1
  have h1 := (index_maps t).2.2.2.2.2.2.2.1.2
  show (V m c main_v44 : S1x64.Idx → EReal) (((cfg0.win 7).blk t).view.emb (ix2 a b)) = _
  refine congrArg (V m c main_v44 : S1x64.Idx → EReal) (funext fun ax => Fin.ext ?_)
  match ax with
  | ⟨0, _⟩ => show win0_7.index t (0 : Fin 2) * 1 + 1 * a.val = a.val; rw [h0]; omega
  | ⟨1, _⟩ => show win0_7.index t (1 : Fin 2) * 64 + 1 * b.val = b.val; rw [h1]; omega

/-- Window 8 has one block, its whole array, at every point. -/
theorem whole8 (c : Dev nD) (t : Fin cfg0.N) (a : Fin 1) (b : Fin 64) :
    (iblk m c 8 t : Vec Ideal S1x64 .f32) (ix2 a b) = (V m c main_v45 : S1x64.Idx → EReal) (ix2 a b) := by
  have h0 := (index_maps t).2.2.2.2.2.2.2.2.1.1
  have h1 := (index_maps t).2.2.2.2.2.2.2.2.1.2
  show (V m c main_v45 : S1x64.Idx → EReal) (((cfg0.win 8).blk t).view.emb (ix2 a b)) = _
  refine congrArg (V m c main_v45 : S1x64.Idx → EReal) (funext fun ax => Fin.ext ?_)
  match ax with
  | ⟨0, _⟩ => show win0_8.index t (0 : Fin 2) * 1 + 1 * a.val = a.val; rw [h0]; omega
  | ⟨1, _⟩ => show win0_8.index t (1 : Fin 2) * 64 + 1 * b.val = b.val; rw [h1]; omega

/-- Window 9 has one block, its whole array, at every point. -/
theorem whole9 (c : Dev nD) (t : Fin cfg0.N) (a : Fin 1) (b : Fin 1) :
    (iblk m c 9 t : Vec Ideal S1x1 .f32) (ix2 a b) = (V m c main_v48 : S1x1.Idx → EReal) (ix2 a b) := by
  have h0 := (index_maps t).2.2.2.2.2.2.2.2.2.1.1
  have h1 := (index_maps t).2.2.2.2.2.2.2.2.2.1.2
  show (V m c main_v48 : S1x1.Idx → EReal) (((cfg0.win 9).blk t).view.emb (ix2 a b)) = _
  refine congrArg (V m c main_v48 : S1x1.Idx → EReal) (funext fun ax => Fin.ext ?_)
  match ax with
  | ⟨0, _⟩ => show win0_9.index t (0 : Fin 2) * 1 + 1 * a.val = a.val; rw [h0]; omega
  | ⟨1, _⟩ => show win0_9.index t (1 : Fin 2) * 1 + 1 * b.val = b.val; rw [h1]; omega

/-- Window 10 has one block, its whole array, at every point. -/
theorem whole10 (c : Dev nD) (t : Fin cfg0.N) (a : Fin 1) (b : Fin 64) :
    (iblk m c 10 t : Vec Ideal S1x64 .f32) (ix2 a b) = (V m c main_v46 : S1x64.Idx → EReal) (ix2 a b) := by
  have h0 := (index_maps t).2.2.2.2.2.2.2.2.2.2.1.1
  have h1 := (index_maps t).2.2.2.2.2.2.2.2.2.2.1.2
  show (V m c main_v46 : S1x64.Idx → EReal) (((cfg0.win 10).blk t).view.emb (ix2 a b)) = _
  refine congrArg (V m c main_v46 : S1x64.Idx → EReal) (funext fun ax => Fin.ext ?_)
  match ax with
  | ⟨0, _⟩ => show win0_10.index t (0 : Fin 2) * 1 + 1 * a.val = a.val; rw [h0]; omega
  | ⟨1, _⟩ => show win0_10.index t (1 : Fin 2) * 64 + 1 * b.val = b.val; rw [h1]; omega

/-- Window 11 has one block, its whole array, at every point. -/
theorem whole11 (c : Dev nD) (t : Fin cfg0.N) (a : Fin 1) (b : Fin 1) :
    (iblk m c 11 t : Vec Ideal S1x1 .f32) (ix2 a b) = (V m c main_v49 : S1x1.Idx → EReal) (ix2 a b) := by
  have h0 := (index_maps t).2.2.2.2.2.2.2.2.2.2.2.1.1
  have h1 := (index_maps t).2.2.2.2.2.2.2.2.2.2.2.1.2
  show (V m c main_v49 : S1x1.Idx → EReal) (((cfg0.win 11).blk t).view.emb (ix2 a b)) = _
  refine congrArg (V m c main_v49 : S1x1.Idx → EReal) (funext fun ax => Fin.ext ?_)
  match ax with
  | ⟨0, _⟩ => show win0_11.index t (0 : Fin 2) * 1 + 1 * a.val = a.val; rw [h0]; omega
  | ⟨1, _⟩ => show win0_11.index t (1 : Fin 2) * 1 + 1 * b.val = b.val; rw [h1]; omega

/-- Window 12 has one block, its whole array, at every point. -/
theorem whole12 (c : Dev nD) (t : Fin cfg0.N) (a : Fin 1) (b : Fin 64) :
    (iblk m c 12 t : Vec Ideal S1x64 .f32) (ix2 a b) = (V m c main_v47 : S1x64.Idx → EReal) (ix2 a b) := by
  have h0 := (index_maps t).2.2.2.2.2.2.2.2.2.2.2.2.1.1
  have h1 := (index_maps t).2.2.2.2.2.2.2.2.2.2.2.2.1.2
  show (V m c main_v47 : S1x64.Idx → EReal) (((cfg0.win 12).blk t).view.emb (ix2 a b)) = _
  refine congrArg (V m c main_v47 : S1x64.Idx → EReal) (funext fun ax => Fin.ext ?_)
  match ax with
  | ⟨0, _⟩ => show win0_12.index t (0 : Fin 2) * 1 + 1 * a.val = a.val; rw [h0]; omega
  | ⟨1, _⟩ => show win0_12.index t (1 : Fin 2) * 64 + 1 * b.val = b.val; rw [h1]; omega

/-- Window 13 has one block, its whole array, at every point. -/
theorem whole13 (c : Dev nD) (t : Fin cfg0.N) (a : Fin 1) (b : Fin 1) :
    (iblk m c 13 t : Vec Ideal S1x1 .f32) (ix2 a b) = (V m c main_v50 : S1x1.Idx → EReal) (ix2 a b) := by
  have h0 := (index_maps t).2.2.2.2.2.2.2.2.2.2.2.2.2.1.1
  have h1 := (index_maps t).2.2.2.2.2.2.2.2.2.2.2.2.2.1.2
  show (V m c main_v50 : S1x1.Idx → EReal) (((cfg0.win 13).blk t).view.emb (ix2 a b)) = _
  refine congrArg (V m c main_v50 : S1x1.Idx → EReal) (funext fun ax => Fin.ext ?_)
  match ax with
  | ⟨0, _⟩ => show win0_13.index t (0 : Fin 2) * 1 + 1 * a.val = a.val; rw [h0]; omega
  | ⟨1, _⟩ => show win0_13.index t (1 : Fin 2) * 1 + 1 * b.val = b.val; rw [h1]; omega

/-! ## What a point writes back -/

/-- The body's result for the output window at point `t`, at `(p, 0)`: the score of edge `5000 t + p`. -/
theorem block_eq (c : Dev nD) (t : Fin cfg0.N) (p : Fin 5000) (u : Fin 1) (e : Fin 800000) (he : e.val = 5000 * t.val + p.val) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p u)
      = edgeScore m c e := by
  unfold out0_14
  simp only [View.ld_unit_zero (S := S5000x64) hz, View.ld_unit_zero (S := S64x64) hz, View.ld_unit_zero (S := S1x64) hz,
    View.ld_unit_zero (S := S1x1) hz]
  refine (canon14_eq (F := Ideal) (iblk m c 0 t) (iblk m c 1 t) (iblk m c 6 t) (iblk m c 7 t) (iblk m c 8 t) (iblk m c 9 t)
    (iblk m c 2 t) (iblk m c 3 t) (iblk m c 10 t) (iblk m c 11 t) (iblk m c 4 t) (iblk m c 5 t) (iblk m c 12 t)
    (iblk m c 13 t) (ix2 p u)).trans ?_
  refine (stored_at (iblk m c 0 t) (iblk m c 1 t) (iblk m c 6 t) (iblk m c 7 t) (iblk m c 8 t) (iblk m c 9 t)
    (iblk m c 2 t) (iblk m c 3 t) (iblk m c 10 t) (iblk m c 11 t) (iblk m c 4 t) (iblk m c 5 t) (iblk m c 12 t)
    (iblk m c 13 t) p u).trans ?_
  unfold edgeScore
  exact score_congr (funext fun k => rows0 m c t p k e he) (funext fun k => rows1 m c t p k e he)
    (funext fun k => rows2 m c t p k e he) (funext fun k => rows3 m c t p k e he)
    (funext fun k => rows4 m c t p k e he) (funext fun k => rows5 m c t p k e he)
    (funext fun k => funext fun j => whole6 m c t k j) (funext fun j => whole7 m c t (0 : Fin 1) j)
    (funext fun j => whole8 m c t (0 : Fin 1) j) (funext fun j => whole10 m c t (0 : Fin 1) j)
    (funext fun j => whole12 m c t (0 : Fin 1) j) (whole9 m c t (0 : Fin 1) (0 : Fin 1))
    (whole11 m c t (0 : Fin 1) (0 : Fin 1)) (whole13 m c t (0 : Fin 1) (0 : Fin 1))

/-- The same over an index `y` of the block and an index `i` of the result whose row is `5000 t +` the row of `y`. -/
theorem block_read (c : Dev nD) (t : Fin cfg0.N) (y : S5000x1.Idx) (i : S800000x1.Idx)
    (h0 : (i 0).val = 5000 * t.val + (y 0).val) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = G m c i := by
  obtain ⟨p, u, rfl⟩ : ∃ (p : Fin 5000) (u : Fin 1), y = ix2 p u := ⟨y 0, y 1, eq_ix2 y⟩
  exact block_eq m c t p u (i 0 : Fin 800000) h0

/-- WHAT POINT `t` WRITES BACK is block `t` of the scores. -/
theorem flushed_eq (c : Dev nD) (t : Fin cfg0.N) :
    (dats m 0 c).flushed 14 t = ((cfg0.win 14).blk t).view.read (Elt Ideal) (G m c) := by
  have h0 := (index_maps t).2.2.2.2.2.2.2.2.2.2.2.2.2.2.1
  rw [flushed14]
  funext y
  show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = G m c (((cfg0.win 14).blk t).view.emb y)
  refine block_read m c t y _ ?_
  show win0_14.index t (0 : Fin 2) * 5000 + 1 * (y 0).val = 5000 * t.val + (y 0).val
  rw [h0]; omega

/-- Every edge is in some point's block: edge `e` in that of point `e / 5000`. -/
theorem covered (c : Dev nD) (i : S800000x1.Idx) :
    ∃ t : Fin cfg0.N, (cfg0.win 14).flush t = true ∧ i ∈ ((cfg0.win 14).blk t).view.set := by
  have hi0 : (i 0).val < 800000 := (i 0).isLt
  have hi1 : (i 1).val < 1 := (i 1).isLt
  have hN : cfg0.N = 160 := N_0
  have ht : ∀ t : Fin cfg0.N, t.val = (i 0).val / 5000 →
      i ∈ ((cfg0.win 14).blk t).view.set := fun t htv => by
    have h0 := (index_maps t).2.2.2.2.2.2.2.2.2.2.2.2.2.2.1
    have h1 := (index_maps t).2.2.2.2.2.2.2.2.2.2.2.2.2.2.2
    show i ∈ ((View.whole main_v51).slice (win0_14.rect t)).set
    rw [View.set_slice_whole, Rect.mem_set_unit]
    intro a
    match a with
    | ⟨0, _⟩ =>
      show win0_14.index t (0 : Fin 2) * 5000 ≤ (i 0).val ∧ (i 0).val < win0_14.index t (0 : Fin 2) * 5000 + 5000
      rw [h0, htv]; omega
    | ⟨1, _⟩ =>
      show win0_14.index t (1 : Fin 2) * 1 ≤ (i 1).val ∧ (i 1).val < win0_14.index t (1 : Fin 2) * 1 + 1
      rw [h1]; omega
  exact ⟨⟨(i 0).val / 5000, by rw [hN]; omega⟩, flush0_14 _, ht _ rfl⟩

/-- THE RESULT ARRAY after the run: every edge's score. -/
theorem final (c : Dev nD) : (dats m 0 c).arrAt 14 cfg0.N = G m c :=
  (dats m 0 c).arrAt_eq_of_cover 14 (G m c) (fun t _ => flushed_eq m c t) (covered c)

end Cert.KernelIdeal.KernelScore

end
-- ==== Proof.HostGathers.lean ====
/-
  The six arrays the kernel's region finds as its row operands are the reference's six gathered arrays.

  Before the region the kernel's host code adds the node features in pairs and gathers rows: for each edge, the row of the
  summed source features at the edge's source, of the summed destination features at its destination, and rows of the two
  further feature arrays at source and at destination — each index first wrapped (a negative index has the number of nodes
  added). The reference does literally the same operations on the same arguments. So each array is the reference's
  stage applied to the same arguments; the gather is carried as that one function and never opened: whichever rows it
  picks, both programs pick the same.
-/
import proofs.«125923_j13503377179004_1_alg».proof.Proof.PatchedKernelIdealFrame
import proofs.«125923_j13503377179004_1_alg».proof.Proof.Gen.ReferenceIdeal.Read
import Idealize.ShloMosaic.Lib.StableHlo.Run

noncomputable section

namespace Cert.KernelIdeal.HostGathers

open Cert.KernelIdeal Cert.KernelIdeal.Gen Cert.KernelIdeal.GenP Idealize.ShloMosaic Idealize.ShloMosaic.TcCoe Idealize.SL.Sem
open Idealize.ShloMosaic.StableHlo

variable (m : (ℓ : Loc nD τ sig) → Buf (Elt Ideal) ℓ) (c : Dev nD)

set_option maxHeartbeats 4000000 in
/-- Rows of the summed source features at the edges' sources. -/
theorem picked_s : (V m c main_v8 : S800000x64.Idx → EReal)
    = Cert.ReferenceIdeal.Read.val_main_v8 (F := Ideal) (m ((c : Thread nD τ).loc main_arg0))
        (m ((c : Thread nD τ).loc main_arg2)) (m ((c : Thread nD τ).loc main_arg3)) := by
  dsimp only [V, hostOps0]
  after_results
  all_goals rfl

set_option maxHeartbeats 4000000 in
/-- Rows of the summed destination features at the edges' destinations. -/
theorem picked_p : (V m c main_v15 : S800000x64.Idx → EReal)
    = Cert.ReferenceIdeal.Read.val_main_v15 (F := Ideal) (m ((c : Thread nD τ).loc main_arg1))
        (m ((c : Thread nD τ).loc main_arg4)) (m ((c : Thread nD τ).loc main_arg5)) := by
  dsimp only [V, hostOps0]
  after_results
  all_goals rfl

set_option maxHeartbeats 4000000 in
/-- Rows of the first further feature array at the edges' sources. -/
theorem picked_x_src : (V m c main_v22 : S800000x64.Idx → EReal)
    = Cert.ReferenceIdeal.Read.val_main_v37 (F := Ideal) (m ((c : Thread nD τ).loc main_arg0))
        (m ((c : Thread nD τ).loc main_arg6)) := by
  dsimp only [V, hostOps0]
  after_results
  all_goals rfl

set_option maxHeartbeats 4000000 in
/-- Rows of the first further feature array at the edges' destinations. -/
theorem picked_x_dst : (V m c main_v29 : S800000x64.Idx → EReal)
    = Cert.ReferenceIdeal.Read.val_main_v44 (F := Ideal) (m ((c : Thread nD τ).loc main_arg1))
        (m ((c : Thread nD τ).loc main_arg6)) := by
  dsimp only [V, hostOps0]
  after_results
  all_goals rfl

set_option maxHeartbeats 4000000 in
/-- Rows of the second further feature array at the edges' sources. -/
theorem picked_w_src : (V m c main_v36 : S800000x64.Idx → EReal)
    = Cert.ReferenceIdeal.Read.val_main_v52 (F := Ideal) (m ((c : Thread nD τ).loc main_arg0))
        (m ((c : Thread nD τ).loc main_arg7)) := by
  dsimp only [V, hostOps0]
  after_results
  all_goals rfl

set_option maxHeartbeats 4000000 in
/-- Rows of the second further feature array at the edges' destinations. -/
theorem picked_w_dst : (V m c main_v43 : S800000x64.Idx → EReal)
    = Cert.ReferenceIdeal.Read.val_main_v59 (F := Ideal) (m ((c : Thread nD τ).loc main_arg1))
        (m ((c : Thread nD τ).loc main_arg7)) := by
  dsimp only [V, hostOps0]
  after_results
  all_goals rfl

end Cert.KernelIdeal.HostGathers

end
-- ==== Proof.HostParams.lean ====
/-
  The parameters as the kernel's region finds them, read at an index.

  Before the region the kernel's host code re-lays the small parameters: the bias vector of 64 entries becomes a 1 × 64
  row (entry `j` of the vector sits at `(0, j)`), each head's 64 × 1 column is transposed to a 1 × 64 row (the column's
  `(j, 0)` sits at `(0, j)`), and each head's one-entry bias becomes a 1 × 1 block. The 64 × 64 weights are passed as they are.
-/
import proofs.«125923_j13503377179004_1_alg».proof.Proof.PatchedKernelIdealFrame
import Idealize.ShloMosaic.Lib.StableHlo.Run
import Idealize.ShloMosaic.Lib.ValueLayout

noncomputable section

namespace Cert.KernelIdeal.HostParams

open Cert.KernelIdeal Cert.KernelIdeal.Gen Cert.KernelIdeal.GenP Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

set_option maxHeartbeats 4000000 in
theorem bias_row : (V m c main_v44 : S1x64.Idx → EReal)
    = shapeCast S1x64 (m ((c : Thread nD τ).loc main_arg9)) shapeCasts_S64_S1x64 := by
  dsimp only [V, hostOps0]
  after_results
  all_goals rfl

/-- The bias row at `(0, j)` is the bias vector's entry `j`. -/
theorem bias_row_at (j : Fin 64) :
    (V m c main_v44 : S1x64.Idx → EReal) (ix2 (0 : Fin 1) j) = m ((c : Thread nD τ).loc main_arg9) (ix1 j) := by
  rw [bias_row]
  exact shapeCast_a_1a_apply _ _ (0 : Fin 1) j

set_option maxHeartbeats 4000000 in
theorem headL_row : (V m c main_v45 : S1x64.Idx → EReal)
    = transpose S1x64 [1, 0] (m ((c : Thread nD τ).loc main_arg10)) transposes_S64x1_S1x64_1_0 := by
  dsimp only [V, hostOps0]
  after_results
  all_goals rfl

/-- The first head's row at `(0, j)` is its column's entry `(j, 0)`. -/
theorem headL_row_at (j : Fin 64) :
    (V m c main_v45 : S1x64.Idx → EReal) (ix2 (0 : Fin 1) j)
      = m ((c : Thread nD τ).loc main_arg10) (ix2 j (0 : Fin 1)) := by
  rw [headL_row]
  exact transpose_ix2_apply _ _ (0 : Fin 1) j

set_option maxHeartbeats 4000000 in
theorem head1_row : (V m c main_v46 : S1x64.Idx → EReal)
    = transpose S1x64 [1, 0] (m ((c : Thread nD τ).loc main_arg12)) transposes_S64x1_S1x64_1_0 := by
  dsimp only [V, hostOps0]
  after_results
  all_goals rfl

/-- The second head's row at `(0, j)` is its column's entry `(j, 0)`. -/
theorem head1_row_at (j : Fin 64) :
    (V m c main_v46 : S1x64.Idx → EReal) (ix2 (0 : Fin 1) j)
      = m ((c : Thread nD τ).loc main_arg12) (ix2 j (0 : Fin 1)) := by
  rw [head1_row]
  exact transpose_ix2_apply _ _ (0 : Fin 1) j

set_option maxHeartbeats 4000000 in
theorem head2_row : (V m c main_v47 : S1x64.Idx → EReal)
    = transpose S1x64 [1, 0] (m ((c : Thread nD τ).loc main_arg14)) transposes_S64x1_S1x64_1_0 := by
  dsimp only [V, hostOps0]
  after_results
  all_goals rfl

/-- The third head's row at `(0, j)` is its column's entry `(j, 0)`. -/
theorem head2_row_at (j : Fin 64) :
    (V m c main_v47 : S1x64.Idx → EReal) (ix2 (0 : Fin 1) j)
      = m ((c : Thread nD τ).loc main_arg14) (ix2 j (0 : Fin 1)) := by
  rw [head2_row]
  exact transpose_ix2_apply _ _ (0 : Fin 1) j

set_option maxHeartbeats 4000000 in
theorem biasL_block : (V m c main_v48 : S1x1.Idx → EReal)
    = shapeCast S1x1 (m ((c : Thread nD τ).loc main_arg11)) shapeCasts_S1_S1x1 := by
  dsimp only [V, hostOps0]
  after_results
  all_goals rfl

/-- The first head's bias block holds that head's one bias entry. -/
theorem biasL_block_at :
    (V m c main_v48 : S1x1.Idx → EReal) (ix2 (0 : Fin 1) (0 : Fin 1))
      = m ((c : Thread nD τ).loc main_arg11) (ix1 (0 : Fin 1)) := by
  rw [biasL_block]
  exact shapeCast_a_1a_apply _ _ (0 : Fin 1) (0 : Fin 1)

set_option maxHeartbeats 4000000 in
theorem bias1_block : (V m c main_v49 : S1x1.Idx → EReal)
    = shapeCast S1x1 (m ((c : Thread nD τ).loc main_arg13)) shapeCasts_S1_S1x1 := by
  dsimp only [V, hostOps0]
  after_results
  all_goals rfl

/-- The second head's bias block holds that head's one bias entry. -/
theorem bias1_block_at :
    (V m c main_v49 : S1x1.Idx → EReal) (ix2 (0 : Fin 1) (0 : Fin 1))
      = m ((c : Thread nD τ).loc main_arg13) (ix1 (0 : Fin 1)) := by
  rw [bias1_block]
  exact shapeCast_a_1a_apply _ _ (0 : Fin 1) (0 : Fin 1)

set_option maxHeartbeats 4000000 in
theorem bias2_block : (V m c main_v50 : S1x1.Idx → EReal)
    = shapeCast S1x1 (m ((c : Thread nD τ).loc main_arg15)) shapeCasts_S1_S1x1 := by
  dsimp only [V, hostOps0]
  after_results
  all_goals rfl

/-- The third head's bias block holds that head's one bias entry. -/
theorem bias2_block_at :
    (V m c main_v50 : S1x1.Idx → EReal) (ix2 (0 : Fin 1) (0 : Fin 1))
      = m ((c : Thread nD τ).loc main_arg15) (ix1 (0 : Fin 1)) := by
  rw [bias2_block]
  exact shapeCast_a_1a_apply _ _ (0 : Fin 1) (0 : Fin 1)

end Cert.KernelIdeal.HostParams

end
-- ==== Proof.Bridge.lean ====
/-
  The kernel's scores, over the reference's gathered arrays and the programs' own arguments.

  The kernel's result is every edge's score over the fourteen arrays its region finds. Six of them are the reference's
  gathered arrays of the same arguments; the weights are the argument itself; the bias row, the head rows and the head
  bias blocks read, at the entries the score uses, the entries of the bias vector, of the heads' columns and of the heads'
  one-entry biases. So the result is `scores` of those six arrays and the eight parameter arguments — the very function the
  reference's result is.
-/
import proofs.«125923_j13503377179004_1_alg».proof.Proof.KernelScore
import proofs.«125923_j13503377179004_1_alg».proof.Proof.HostGathers
import proofs.«125923_j13503377179004_1_alg».proof.Proof.HostParams

noncomputable section

namespace Cert.KernelIdeal.Bridge

open Cert.KernelIdeal Cert.KernelIdeal.Gen Cert.KernelIdeal.GenP Cert.KernelIdeal.KernelScore Cert.KernelIdeal.HostGathers
open Cert.KernelIdeal.HostParams Cert.EdgeScore
open Idealize.ShloMosaic Idealize.ShloMosaic.TcCoe Idealize.SL.Sem Idealize.ShloMosaic.ValueIdx

variable (m : (ℓ : Loc nD τ sig) → Buf (Elt Ideal) ℓ)

/-- Edge `e`'s score over the region's arrays is its score over the reference's gathered arrays and the arguments' own
    parameters. -/
theorem edgeScore_eq (c : Dev nD) (e : Fin 800000) :
    edgeScore m c e = score
      (fun k => (Cert.ReferenceIdeal.Read.val_main_v8 (F := Ideal) (m ((c : Thread nD τ).loc main_arg0)) (m ((c : Thread nD τ).loc main_arg2)) (m ((c : Thread nD τ).loc main_arg3))) (ix2 e k))
      (fun k => (Cert.ReferenceIdeal.Read.val_main_v15 (F := Ideal) (m ((c : Thread nD τ).loc main_arg1)) (m ((c : Thread nD τ).loc main_arg4)) (m ((c : Thread nD τ).loc main_arg5))) (ix2 e k))
      (fun k => (Cert.ReferenceIdeal.Read.val_main_v37 (F := Ideal) (m ((c : Thread nD τ).loc main_arg0)) (m ((c : Thread nD τ).loc main_arg6))) (ix2 e k))
      (fun k => (Cert.ReferenceIdeal.Read.val_main_v44 (F := Ideal) (m ((c : Thread nD τ).loc main_arg1)) (m ((c : Thread nD τ).loc main_arg6))) (ix2 e k))
      (fun k => (Cert.ReferenceIdeal.Read.val_main_v52 (F := Ideal) (m ((c : Thread nD τ).loc main_arg0)) (m ((c : Thread nD τ).loc main_arg7))) (ix2 e k))
      (fun k => (Cert.ReferenceIdeal.Read.val_main_v59 (F := Ideal) (m ((c : Thread nD τ).loc main_arg1)) (m ((c : Thread nD τ).loc main_arg7))) (ix2 e k))
      (fun k j => (m ((c : Thread nD τ).loc main_arg8)) (ix2 k j)) (fun j => (m ((c : Thread nD τ).loc main_arg9)) (ix1 j))
      (fun j => (m ((c : Thread nD τ).loc main_arg10)) (ix2 j (0 : Fin 1))) (fun j => (m ((c : Thread nD τ).loc main_arg12)) (ix2 j (0 : Fin 1)))
      (fun j => (m ((c : Thread nD τ).loc main_arg14)) (ix2 j (0 : Fin 1))) ((m ((c : Thread nD τ).loc main_arg11)) (ix1 (0 : Fin 1)))
      ((m ((c : Thread nD τ).loc main_arg13)) (ix1 (0 : Fin 1))) ((m ((c : Thread nD τ).loc main_arg15)) (ix1 (0 : Fin 1))) := by
  unfold edgeScore
  exact score_congr
    (funext fun k => congrFun (picked_s m c) (ix2 e k)) (funext fun k => congrFun (picked_p m c) (ix2 e k))
    (funext fun k => congrFun (picked_x_src m c) (ix2 e k)) (funext fun k => congrFun (picked_x_dst m c) (ix2 e k))
    (funext fun k => congrFun (picked_w_src m c) (ix2 e k)) (funext fun k => congrFun (picked_w_dst m c) (ix2 e k))
    (funext fun k => funext fun j => congrFun (V_main_arg8 m c) (ix2 k j))
    (funext fun j => bias_row_at m c j) (funext fun j => headL_row_at m c j) (funext fun j => head1_row_at m c j)
    (funext fun j => head2_row_at m c j) (biasL_block_at m c) (bias1_block_at m c) (bias2_block_at m c)

/-- THE KERNEL'S RESULT as a function of the arguments: the scores over the reference's six gathered arrays. -/
theorem G_eq (c : Dev nD) :
    G m c = scores
      (Cert.ReferenceIdeal.Read.val_main_v8 (F := Ideal) (m ((c : Thread nD τ).loc main_arg0)) (m ((c : Thread nD τ).loc main_arg2)) (m ((c : Thread nD τ).loc main_arg3)))
      (Cert.ReferenceIdeal.Read.val_main_v15 (F := Ideal) (m ((c : Thread nD τ).loc main_arg1)) (m ((c : Thread nD τ).loc main_arg4)) (m ((c : Thread nD τ).loc main_arg5)))
      (Cert.ReferenceIdeal.Read.val_main_v37 (F := Ideal) (m ((c : Thread nD τ).loc main_arg0)) (m ((c : Thread nD τ).loc main_arg6)))
      (Cert.ReferenceIdeal.Read.val_main_v44 (F := Ideal) (m ((c : Thread nD τ).loc main_arg1)) (m ((c : Thread nD τ).loc main_arg6)))
      (Cert.ReferenceIdeal.Read.val_main_v52 (F := Ideal) (m ((c : Thread nD τ).loc main_arg0)) (m ((c : Thread nD τ).loc main_arg7)))
      (Cert.ReferenceIdeal.Read.val_main_v59 (F := Ideal) (m ((c : Thread nD τ).loc main_arg1)) (m ((c : Thread nD τ).loc main_arg7)))
      (m ((c : Thread nD τ).loc main_arg8)) (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) (m ((c : Thread nD τ).loc main_arg15)) :=
  funext fun i => edgeScore_eq m c (i 0 : Fin 800000)

end Cert.KernelIdeal.Bridge

end
-- ==== Proof.lean ====
/-
  The certificate of one fused edge-scoring kernel against its plain reference.

  For each of 800000 edges both programs compute, from rows of node features gathered at the edge's source and
  destination, one number: a leaky rectifier, a 64 × 64 linear layer with bias and the rectifier again, contracted with one
  head; two elementwise products of gathered rows contracted with two more heads; each head's bias added and the three
  results summed (`Cert.EdgeScore.score`). The kernel does the gathers on the host, then runs 160 grid points of 5000
  edges, its matrix product into a zero accumulator and its heads as lane sums; the reference is three `dot_general`s over
  all edges at once. On the extended reals a sum into zero is the sum, a lane sum of products is the contraction, and a
  change of float format is the identity, so the two results are one function of the arguments, entry by entry, with the
  same grouping of every sum: nothing is rearranged and the inputs' finiteness is never used.

  The three frames: the two kernel programs' by their frame runs, the reference's by its run with the result dropped. The
  idealization rewrote no operation, so `preserves` has nothing to state.
-/
import proofs.«125923_j13503377179004_1_alg».proof.Defs
import proofs.«125923_j13503377179004_1_alg».proof.Proof.Gen.Kernel
import proofs.«125923_j13503377179004_1_alg».proof.Proof.Gen.Kernel.Skeleton
import proofs.«125923_j13503377179004_1_alg».proof.Proof.PatchedKernelLaunch
import proofs.«125923_j13503377179004_1_alg».proof.Proof.Gen.Kernel.Points
import proofs.«125923_j13503377179004_1_alg».proof.Proof.PatchedKernelFrame
import proofs.«125923_j13503377179004_1_alg».proof.Proof.Gen.KernelIdeal
import proofs.«125923_j13503377179004_1_alg».proof.Proof.Gen.KernelIdeal.Skeleton
import proofs.«125923_j13503377179004_1_alg».proof.Proof.PatchedKernelIdealLaunch
import proofs.«125923_j13503377179004_1_alg».proof.Proof.Gen.KernelIdeal.Points
import proofs.«125923_j13503377179004_1_alg».proof.Proof.PatchedKernelIdealFrame
import proofs.«125923_j13503377179004_1_alg».proof.Proof.Gen.ReferenceIdeal
import proofs.«125923_j13503377179004_1_alg».proof.Proof.Gen.Pre_finite_inputs
import proofs.«125923_j13503377179004_1_alg».proof.Proof.PatchedKernelIdealValue
import proofs.«125923_j13503377179004_1_alg».proof.Proof.Gen.ReferenceIdeal.Run
import proofs.«125923_j13503377179004_1_alg».proof.Proof.Gen.ReferenceIdeal.Read
import Idealize.ShloMosaic.Adequacy
import Idealize.ShloMosaic.Init
import proofs.«125923_j13503377179004_1_alg».proof.Proof.EdgeScore
import proofs.«125923_j13503377179004_1_alg».proof.Proof.RefScore
import proofs.«125923_j13503377179004_1_alg».proof.Proof.BlockScore
import proofs.«125923_j13503377179004_1_alg».proof.Proof.KernelScore
import proofs.«125923_j13503377179004_1_alg».proof.Proof.HostGathers
import proofs.«125923_j13503377179004_1_alg».proof.Proof.HostParams
import proofs.«125923_j13503377179004_1_alg».proof.Proof.Bridge

noncomputable section

namespace Cert.Proof

open Idealize.ShloMosaic Idealize.SL.Sem

theorem frame_kernel : Cert.frame_Kernel :=
  fun m ρ _ => Cert.Kernel.GenP.frame m ρ

theorem frame_kernel_ideal : Cert.frame_KernelIdeal :=
  fun m ρ _ => Cert.KernelIdeal.GenP.frame m ρ

theorem frame_reference_ideal : Cert.frame_ReferenceIdeal :=
  fun m ρ _ => (θ_run Cert.ReferenceIdeal.defs _ _).mono (fun _ h c => (h c).2)
    (Cert.ReferenceIdeal.Value.run (F := Ideal) m ρ)

/-- From memories that agree on the arguments both idealized programs end with every edge's score in their result:
    the kernel's array by its blocks, the reference's by its stages, over the same six gathered arrays. -/
theorem algebraic : Cert.algebraic_KernelIdeal_ReferenceIdeal := by
  intro m ρ m' ρ' _ hagree
  refine ⟨fun c => Cert.KernelIdeal.KernelScore.G m c, ?_, ?_⟩
  · exact (θ_run Cert.KernelIdeal.defs _ _).mono
      (fun r h c => ⟨(h c).1.trans (Cert.KernelIdeal.KernelScore.final m c), (h c).2⟩)
      (Cert.KernelIdeal.ValueP.run_blocks m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.ReferenceIdeal.Read.val_main_v74_eq, Cert.ReferenceIdeal.RefScore.result_eq, e0, e1, e2, e3, e4, e5, e6, e7, e8, e9, e10, e11, e12, e13, e14, e15]
    exact (Cert.KernelIdeal.Bridge.G_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
